-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x200x64 : Shape := ⟨4, ![64, 16, 200, 64]⟩
abbrev S_ : Shape := ⟨0, ![]⟩

class Facts : Prop where
  bcast_S_S64x16x200x64 : S_.BroadcastsInDim S64x16x200x64 (![] : Fin 0 → Fin S64x16x200x64.rank)
  reducesTo_S64x16x200x64_S_d0_1_2_3 : S64x16x200x64.ReducesTo [0, 1, 2, 3] S_
  h_S_ : 0 < S_.numel

variable [Facts]

def fn_part1 {F : FTy → Type} [FloatOps F] (main_v13 : IVec S_ 1) (main_v15 : FVec F S64x16x200x64 .f32) (main_cst_5 : FVec F S_ .f32) : IVec S_ 1 :=
  let main_v16 : FVec F S64x16x200x64 .f32 := broadcastInDim S64x16x200x64 ![] bcast_S_S64x16x200x64 main_cst_5
  let main_v17 : IVec S64x16x200x64 1 := cmpf .ogt main_v15 main_v16
  let main_c_6 : IVec S_ 1 := constantI S_ 1 1#1
  let main_v18 : IVec S_ 1 := (fun x v => Host.reduce IntOp.andi x v reducesTo_S64x16x200x64_S_d0_1_2_3 h_S_) main_v17 main_c_6
  let main_v19 : IVec S_ 1 := andi main_v13 main_v18
  main_v19

def fn {F : FTy → Type} [FloatOps F] (main_arg0 : FVec F S64x16x200x64 .f32) (main_arg1 : FVec F S64x16x200x64 .f32) (main_arg2 : FVec F S64x16x200x64 .f32) : IVec S_ 1 :=
  let main_v0 : FVec F S64x16x200x64 .f32 := Host.absf main_arg0
  let main_cst : FVec F S_ .f32 := constant S_ .f32 0x7F800000#32
  let main_v1 : FVec F S64x16x200x64 .f32 := broadcastInDim S64x16x200x64 ![] bcast_S_S64x16x200x64 main_cst
  let main_v2 : IVec S64x16x200x64 1 := cmpf .olt main_v0 main_v1
  let main_c : IVec S_ 1 := constantI S_ 1 1#1
  let main_v3 : IVec S_ 1 := (fun x v => Host.reduce IntOp.andi x v reducesTo_S64x16x200x64_S_d0_1_2_3 h_S_) main_v2 main_c
  let main_v4 : FVec F S64x16x200x64 .f32 := Host.absf main_arg1
  let main_cst_0 : FVec F S_ .f32 := constant S_ .f32 0x7F800000#32
  let main_v5 : FVec F S64x16x200x64 .f32 := broadcastInDim S64x16x200x64 ![] bcast_S_S64x16x200x64 main_cst_0
  let main_v6 : IVec S64x16x200x64 1 := cmpf .olt main_v4 main_v5
  let main_c_1 : IVec S_ 1 := constantI S_ 1 1#1
  let main_v7 : IVec S_ 1 := (fun x v => Host.reduce IntOp.andi x v reducesTo_S64x16x200x64_S_d0_1_2_3 h_S_) main_v6 main_c_1
  let main_v8 : IVec S_ 1 := andi main_v3 main_v7
  let main_v9 : FVec F S64x16x200x64 .f32 := Host.absf main_arg2
  let main_cst_2 : FVec F S_ .f32 := constant S_ .f32 0x7F800000#32
  let main_v10 : FVec F S64x16x200x64 .f32 := broadcastInDim S64x16x200x64 ![] bcast_S_S64x16x200x64 main_cst_2
  let main_v11 : IVec S64x16x200x64 1 := cmpf .olt main_v9 main_v10
  let main_c_3 : IVec S_ 1 := constantI S_ 1 1#1
  let main_v12 : IVec S_ 1 := (fun x v => Host.reduce IntOp.andi x v reducesTo_S64x16x200x64_S_d0_1_2_3 h_S_) main_v11 main_c_3
  let main_v13 : IVec S_ 1 := andi main_v8 main_v12
  let main_cst_4 : FVec F S_ .f32 := constant S_ .f32 0x3727C5AC#32
  let main_v14 : FVec F S64x16x200x64 .f32 := broadcastInDim S64x16x200x64 ![] bcast_S_S64x16x200x64 main_cst_4
  let main_v15 : FVec F S64x16x200x64 .f32 := addf main_arg1 main_v14
  let main_cst_5 : FVec F S_ .f32 := constant S_ .f32 0x00000000#32
  fn_part1 (F := F) main_v13 main_v15 main_cst_5
-- ==== Kernel.lean ====
abbrev S64x16x200x64 : Shape := ⟨4, ![64, 16, 200, 64]⟩
abbrev S1024x200x64 : Shape := ⟨3, ![1024, 200, 64]⟩
abbrev S1024x1 : Shape := ⟨2, ![1024, 1]⟩
abbrev S32x200x64 : Shape := ⟨3, ![32, 200, 64]⟩
abbrev S32x1 : Shape := ⟨2, ![32, 1]⟩
abbrev S32x200 : Shape := ⟨2, ![32, 200]⟩
abbrev S32 : Shape := ⟨1, ![32]⟩
abbrev S64x16 : Shape := ⟨2, ![64, 16]⟩

abbrev nBuf : Space → Nat
  | .hbm => 10
  | .vmem => 10
  | .smem => 0
  | _ => 0

abbrev bufTy : (tb : Table) → Fin (tcTables nBuf tb) → BufTy
  | .hbm, ⟨0, _⟩ => ⟨S64x16x200x64, .f32⟩
  | .hbm, ⟨1, _⟩ => ⟨S64x16x200x64, .f32⟩
  | .hbm, ⟨2, _⟩ => ⟨S64x16x200x64, .f32⟩
  | .hbm, ⟨3, _⟩ => ⟨S1024x200x64, .f32⟩
  | .hbm, ⟨4, _⟩ => ⟨S1024x200x64, .f32⟩
  | .hbm, ⟨5, _⟩ => ⟨S1024x200x64, .f32⟩
  | .hbm, ⟨6, _⟩ => ⟨S1024x200x64, .f32⟩
  | .hbm, ⟨7, _⟩ => ⟨S1024x1, .f32⟩
  | .hbm, ⟨8, _⟩ => ⟨S64x16x200x64, .f32⟩
  | .hbm, ⟨9, _⟩ => ⟨S64x16, .f32⟩
  | .local _ .vmem, ⟨0, _⟩ => ⟨S32x200x64, .f32⟩
  | .local _ .vmem, ⟨1, _⟩ => ⟨S32x200x64, .f32⟩
  | .local _ .vmem, ⟨2, _⟩ => ⟨S32x200x64, .f32⟩
  | .local _ .vmem, ⟨3, _⟩ => ⟨S32x200x64, .f32⟩
  | .local _ .vmem, ⟨4, _⟩ => ⟨S32x200x64, .f32⟩
  | .local _ .vmem, ⟨5, _⟩ => ⟨S32x200x64, .f32⟩
  | .local _ .vmem, ⟨6, _⟩ => ⟨S32x200x64, .f32⟩
  | .local _ .vmem, ⟨7, _⟩ => ⟨S32x200x64, .f32⟩
  | .local _ .vmem, ⟨8, _⟩ => ⟨S32x1, .f32⟩
  | .local _ .vmem, ⟨9, _⟩ => ⟨S32x1, .f32⟩
  | _, _ => ⟨S64x16x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x16x200x64_S1024x200x64 : S64x16x200x64.ShapeCasts S1024x200x64
  inb_S32x200x64_S32x200x64_0_0_0 : ∀ a, (![0, 0, 0] : Fin 3 → Nat) a + S32x200x64.size a ≤ S32x200x64.size a
  h_S32x200x64 : 0 < S32x200x64.numel
  shapeCasts_S32x200x64_S32x200x64 : S32x200x64.ShapeCasts S32x200x64
  reduces_S32x200x64_S32x200 : S32x200x64.Reduces [2] S32x200
  reduces_S32x200_S32 : S32x200.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S1024x200x64_S64x16x200x64 : S1024x200x64.ShapeCasts S64x16x200x64
  shapeCasts_S1024x1_S64x16 : S1024x1.ShapeCasts S64x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x200x64.size a ≤ S1024x200x64.size a
  hwx0_0 : ∀ i : grid0.Coords, EltTy.bits .f32 = 32 ∨ (Rect.block (s := S1024x200x64) S32x200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x200x64.size a ≤ S1024x200x64.size a
  hwx0_1 : ∀ i : grid0.Coords, EltTy.bits .f32 = 32 ∨ (Rect.block (s := S1024x200x64) S32x200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x200x64.size a ≤ S1024x200x64.size a
  hwx0_2 : ∀ i : grid0.Coords, EltTy.bits .f32 = 32 ∨ (Rect.block (s := S1024x200x64) S32x200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x200x64.size a ≤ S1024x200x64.size a
  hwx0_3 : ∀ i : grid0.Coords, EltTy.bits .f32 = 32 ∨ (Rect.block (s := S1024x200x64) S32x200x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S1024x1.size a
  hwx0_4 : ∀ i : grid0.Coords, EltTy.bits .f32 = 32 ∨ (Rect.block (s := S1024x1) S32x1.size (cc0_transform_4 i) (hinb0_4 i)).WholeWords (EltTy.packing .f32)

variable [Facts₀]

abbrev win0_0 : Pipeline.Window sig grid0 :=
  Pipeline.Window.ofSpec (Memref.whole main_v0) S32x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S32x200x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x16x200x64 : Shape := ⟨4, ![64, 16, 200, 64]⟩
abbrev S_ : Shape := ⟨0, ![]⟩
abbrev S64x16x200 : Shape := ⟨3, ![64, 16, 200]⟩
abbrev S64x16 : Shape := ⟨2, ![64, 16]⟩

abbrev nBuf : Space → Nat
  | .hbm => 25
  | .vmem => 0
  | .smem => 0
  | _ => 0

abbrev bufTy : (tb : Table) → Fin (tcTables nBuf tb) → BufTy
  | .hbm, ⟨0, _⟩ => ⟨S64x16x200x64, .f32⟩
  | .hbm, ⟨1, _⟩ => ⟨S64x16x200x64, .f32⟩
  | .hbm, ⟨2, _⟩ => ⟨S64x16x200x64, .f32⟩
  | .hbm, ⟨3, _⟩ => ⟨S_, .f32⟩
  | .hbm, ⟨4, _⟩ => ⟨S64x16x200x64, .f32⟩
  | .hbm, ⟨5, _⟩ => ⟨S64x16x200x64, .f32⟩
  | .hbm, ⟨6, _⟩ => ⟨S64x16x200x64, .f32⟩
  | .hbm, ⟨7, _⟩ => ⟨S64x16x200x64, .f32⟩
  | .hbm, ⟨8, _⟩ => ⟨S64x16x200x64, .f32⟩
  | .hbm, ⟨9, _⟩ => ⟨S64x16x200x64, .f32⟩
  | .hbm, ⟨10, _⟩ => ⟨S64x16x200x64, .f32⟩
  | .hbm, ⟨11, _⟩ => ⟨S_, .f32⟩
  | .hbm, ⟨12, _⟩ => ⟨S64x16x200, .f32⟩
  | .hbm, ⟨13, _⟩ => ⟨S_, .f32⟩
  | .hbm, ⟨14, _⟩ => ⟨S64x16x200, .f32⟩
  | .hbm, ⟨15, _⟩ => ⟨S64x16x200, .f32⟩
  | .hbm, ⟨16, _⟩ => ⟨S64x16x200x64, .f32⟩
  | .hbm, ⟨17, _⟩ => ⟨S_, .f32⟩
  | .hbm, ⟨18, _⟩ => ⟨S64x16x200, .f32⟩
  | .hbm, ⟨19, _⟩ => ⟨S64x16x200, .f32⟩
  | .hbm, ⟨20, _⟩ => ⟨S_, .f32⟩
  | .hbm, ⟨21, _⟩ => ⟨S64x16x200, .f32⟩
  | .hbm, ⟨22, _⟩ => ⟨S64x16x200, .f32⟩
  | .hbm, ⟨23, _⟩ => ⟨S_, .f32⟩
  | .hbm, ⟨24, _⟩ => ⟨S64x16, .f32⟩
  | _, _ => ⟨S64x16x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S64x16x200x64 : S_.BroadcastsInDim S64x16x200x64 (![] : Fin 0 → Fin S64x16x200x64.rank)
  reducesTo_S64x16x200x64_S64x16x200_d3 : S64x16x200x64.ReducesTo [3] S64x16x200
  h_S_ : 0 < S_.numel
  bcast_S_S64x16x200 : S_.BroadcastsInDim S64x16x200 (![] : Fin 0 → Fin S64x16x200.rank)
  reducesTo_S64x16x200_S64x16_d2 : S64x16x200.ReducesTo [2] S64x16

variable [Facts₀]

class Facts : Prop extends Facts₀ where

variable [Facts]
-- ==== Proof.GaussTerms.lean ====
/-
  The arithmetic of a reparameterised sample and its diagonal-Gaussian log-likelihood, on the extended reals.

  With scale `s = σ + δ` (`δ` a fixed offset), sample `ξ = μ + s·ε` and standardised residual `z = (ξ − μ) / s`, the
  log-likelihood of one row is `Σ_t ( −½ · Σ_d z² − Σ_d log s − κ )`. For real `μ`, `ε` and real `s > 0` the residual is
  `ε` itself, so `z²` may be replaced by `ε²`: that is the one law this file proves (`standardized`); the rest are the
  two ways the sums are laid out (over a rank-4 array [B, C, T, D], and over its rows flattened to [B·C, T, D]).
-/
import Idealize.ShloMosaic.PureOps.Ideal
import Idealize.ShloMosaic.PureOps.Ideal.Laws
import Idealize.ShloMosaic.Lib.ValueIdx

noncomputable section

namespace Cert.GaussLL

open Idealize.ShloMosaic Idealize.ShloMosaic.ValueIdx

/-- The offset `δ` added to the scale input (the f32 nearest to 1e-5). -/
abbrev delta : EReal := Ideal.ofBits .f32 0x3727C5AC#32
/-- The factor in front of the sum of squares (the f32 −0.5). -/
abbrev negHalf : EReal := Ideal.ofBits .f32 0xBF000000#32
/-- The normalising constant `κ` (the f32 nearest to 32·log 2π). -/
abbrev kappa : EReal := Ideal.ofBits .f32 0x426B3F8E#32

/-- The offset is a finite number: not `+∞`. -/
theorem delta_ne_top : delta ≠ ⊤ := by
  simp [delta, Ideal.ofBits, Ideal.ieee, -EReal.coe_mul]

/-- For real `μ`, `ε` and a real scale `s > 0`, the standardised residual of the sample `μ + s·ε` is `ε`. -/
theorem standardized {a s e : EReal} (ha : ∃ r : ℝ, a = (r : EReal)) (he : ∃ r : ℝ, e = (r : EReal))
    (hs0 : 0 < s) (hst : s ≠ ⊤) : Ideal.div ((a + s * e) - a) s = e := by
  obtain ⟨a, rfl⟩ := ha
  obtain ⟨e, rfl⟩ := he
  lift s to ℝ using ⟨hst, ne_bot_of_gt hs0⟩
  have hs : s ≠ 0 := fun h => by rw [h] at hs0; exact lt_irrefl _ hs0
  rw [Ideal.div_coe hs, ← EReal.coe_mul, ← EReal.coe_add, ← EReal.coe_sub, ← EReal.coe_mul]
  congr 1
  field_simp
  ring

/-- The sample, entry by entry. -/
def xiAt {S : Shape} (mu sg ep : S.Idx → EReal) : S.Idx → EReal :=
  fun i => mu i + (sg i + delta) * ep i

/-- One (t)-term of a row's log-likelihood from the row's squared residuals `q d` and scales `s d`. -/
def term (q s : Fin 64 → EReal) : EReal :=
  negHalf * (∑ d : Fin 64, q d) - (∑ d : Fin 64, Ideal.log (s d)) - kappa

/-- The log-likelihood of row `n` of arrays laid out [N, 200, 64], with `ε²` for the squared residual. -/
def rowLL {N : ℕ} (sg ep : (⟨3, ![N, 200, 64]⟩ : Shape).Idx → EReal) (n : Fin N) : EReal :=
  ∑ t : Fin 200, term (fun d => ep (ix3 n t d) * ep (ix3 n t d)) (fun d => sg (ix3 n t d) + delta)

/-- The same for entry `(b, c)` of arrays laid out [64, 16, 200, 64]. -/
def llAt (sg ep : (⟨4, ![64, 16, 200, 64]⟩ : Shape).Idx → EReal) (b : Fin 64) (c : Fin 16) : EReal :=
  ∑ t : Fin 200, term (fun d => ep (ix4 b c t d) * ep (ix4 b c t d)) (fun d => sg (ix4 b c t d) + delta)

/-- The log-likelihoods as an array [64, 16]. -/
def llGrid (sg ep : (⟨4, ![64, 16, 200, 64]⟩ : Shape).Idx → EReal) : (⟨2, ![64, 16]⟩ : Shape).Idx → EReal :=
  fun i => llAt sg ep ⟨(i 0).val, (i 0).isLt⟩ ⟨(i 1).val, (i 1).isLt⟩

end Cert.GaussLL

end
-- ==== Proof.FiniteDomain.lean ====
/-
  What the precondition says of each entry: every entry of the three inputs is a real number, and the scale
  `σ + δ` is positive at every entry (the domain of the logarithm the log-likelihood takes, and of its division).
-/
import proofs.«174244_j71777493451127_2_alg».proof.Pre_finite_inputs
import proofs.«174244_j71777493451127_2_alg».proof.Proof.GaussTerms
import Idealize.ShloMosaic.Lib.ReduceAll
import Idealize.ShloMosaic.PureOps.Ideal.Laws

noncomputable section

namespace Cert.GaussLL

open Idealize.ShloMosaic Idealize.ShloMosaic.ValueIdx

instance subsingleton_scalarIdx : Subsingleton Cert.Pre_finite_inputs.S_.Idx := ⟨fun _ _ => funext fun d => d.elim0⟩

/-- An extended real whose absolute value is below `+∞` is a real number. -/
theorem real_of_abs_lt_inf {x : EReal}
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have hinf : Ideal.ofBits .f32 0x7F800000#32 = ⊤ := by simp [Ideal.ofBits, Ideal.ieee]
  rw [Ideal.cmpf_def, Ideal.hostAbsf_def, Ideal.absf_def, Ideal.ofBits_def, hinf] at h
  induction x using EReal.rec with
  | bot => simp [Ideal.cmp] at h
  | top => simp [Ideal.cmp] at h
  | coe r => exact ⟨r, rfl⟩

/-- A comparison `y < x` that came out true, read back. -/
theorem lt_of_cmp_ogt {x y : EReal} (h : FloatOps.cmpf (F := Ideal) (φ := .f32) .ogt x y = 1#1) : y < x := by
  rw [Ideal.cmpf_def] at h
  by_contra hn
  simp [Ideal.cmp, hn] at h

variable [Cert.Pre_finite_inputs.Facts]

/-- The precondition, entry by entry. -/
theorem domain (a0 a1 a2 : FVec Ideal Cert.Pre_finite_inputs.S64x16x200x64 .f32)
    (h : Cert.Pre_finite_inputs.fn (F := Ideal) a0 a1 a2 = fun _ => 1#1) (i : Cert.Pre_finite_inputs.S64x16x200x64.Idx) :
    (∃ r : ℝ, a0 i = (r : EReal)) ∧ (∃ r : ℝ, a1 i = (r : EReal)) ∧ (∃ r : ℝ, a2 i = (r : EReal)) ∧ 0 < a1 i + delta := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hh0, hh1⟩ := IntOp.andi_eq_one.1 h01
  have e0 := Host.reduce_andi_all _ _ _ _ _ hh0 i
  have e1 := Host.reduce_andi_all _ _ _ _ _ hh1 i
  have e2 := Host.reduce_andi_all _ _ _ _ _ h2 i
  have e3 := Host.reduce_andi_all _ _ _ _ _ h3 i
  refine ⟨real_of_abs_lt_inf e0, real_of_abs_lt_inf e1, real_of_abs_lt_inf e2, ?_⟩
  have := lt_of_cmp_ogt e3
  have hz : Ideal.ofBits .f32 0x00000000#32 = 0 := Ideal.ofBits_zero_f32
  exact hz ▸ this

end Cert.GaussLL

end
-- ==== Proof.ReferenceValues.lean ====
/-
  The reference's two results, entry by entry, at the ideal values: the sample `μ + (σ + δ)·ε`, and — where every
  input entry is real and the scale `σ + δ` is positive — the log-likelihood with `ε²` for the squared standardised
  residual `((ξ − μ) / s)²` (the law `standardized`), the sums over `d` and over `t` read as plain finite sums.
-/
import proofs.«174244_j71777493451127_2_alg».proof.Proof.Gen.ReferenceIdeal.Read
import proofs.«174244_j71777493451127_2_alg».proof.Proof.GaussTerms

noncomputable section

namespace Cert.GaussLL

open Idealize.ShloMosaic Idealize.ShloMosaic.ValueIdx Cert.ReferenceIdeal Cert.ReferenceIdeal.Read

/-- The reference's sample is `μ + (σ + δ)·ε` entry by entry. -/
theorem ref_sample (a0 a1 a2 : FVec Ideal S64x16x200x64 .f32) :
    val_main_v3 (F := Ideal) a0 a1 a2 = xiAt a0 a1 a2 := by
  funext i
  rw [val_main_v3_apply, val_main_v2_apply, val_main_v1_apply, val_main_v0_apply, val_main_cst_apply]
  rfl

/-- The reference's scale at an entry. -/
theorem ref_scale (a1 : FVec Ideal S64x16x200x64 .f32) (i : S64x16x200x64.Idx) :
    val_main_v1 (F := Ideal) a1 i = a1 i + delta := by
  rw [val_main_v1_apply, val_main_v0_apply, val_main_cst_apply]
  rfl

/-- The squared standardised residual at an entry is `ε²` there, for real `μ`, `ε` and a positive real scale. -/
theorem ref_sq (a0 a1 a2 : FVec Ideal S64x16x200x64 .f32) (i : S64x16x200x64.Idx)
    (h0 : ∃ r : ℝ, a0 i = (r : EReal)) (h1 : ∃ r : ℝ, a1 i = (r : EReal)) (h2 : ∃ r : ℝ, a2 i = (r : EReal))
    (hs : 0 < a1 i + delta) : val_main_v6 (F := Ideal) a0 a1 a2 i = a2 i * a2 i := by
  have hst : a1 i + delta ≠ ⊤ := by
    obtain ⟨r, hr⟩ := h1
    rw [hr]
    exact EReal.add_ne_top (EReal.coe_ne_top r) delta_ne_top
  have hz : val_main_v5 (F := Ideal) a0 a1 a2 i = a2 i := by
    rw [val_main_v5_apply, val_main_v4_apply, val_main_v3_apply, val_main_v2_apply, ref_scale]
    exact standardized h0 h2 hs hst
  rw [val_main_v6_apply, hz]
  rfl

/-- The logarithm of the scale at an entry. -/
theorem ref_logscale (a1 : FVec Ideal S64x16x200x64 .f32) (i : S64x16x200x64.Idx) :
    val_main_v10 (F := Ideal) a1 i = Ideal.log (a1 i + delta) := by
  rw [val_main_v10_apply, ref_scale]
  rfl

/-- The reference's log-likelihood at `(b, c)`. -/
theorem ref_loglik (a0 a1 a2 : FVec Ideal S64x16x200x64 .f32)
    (hd : ∀ i : S64x16x200x64.Idx, (∃ r : ℝ, a0 i = (r : EReal)) ∧ (∃ r : ℝ, a1 i = (r : EReal)) ∧ (∃ r : ℝ, a2 i = (r : EReal))
      ∧ 0 < a1 i + delta) (b : Fin 64) (c : Fin 16) :
    val_main_v15 (F := Ideal) a0 a1 a2 (ix2 b c) = llAt a1 a2 b c := by
  have hidx15 : ∀ k : Fin 200, idx_main_v15 (ix2 b c) k = ix3 b c k := fun k =>
    funext fun a => Fin.ext (by match a with | ⟨0, _⟩ => rfl | ⟨1, _⟩ => rfl | ⟨2, _⟩ => rfl)
  have hidx7 : ∀ (t : Fin 200) (d : Fin 64), idx_main_v7 (ix3 b c t) d = ix4 b c t d := fun t d =>
    funext fun a => Fin.ext (by match a with | ⟨0, _⟩ => rfl | ⟨1, _⟩ => rfl | ⟨2, _⟩ => rfl | ⟨3, _⟩ => rfl)
  have hidx11 : ∀ (t : Fin 200) (d : Fin 64), idx_main_v11 (ix3 b c t) d = ix4 b c t d := fun t d =>
    funext fun a => Fin.ext (by match a with | ⟨0, _⟩ => rfl | ⟨1, _⟩ => rfl | ⟨2, _⟩ => rfl | ⟨3, _⟩ => rfl)
  have hzero : ∀ j : S_.Idx, val_main_cst_4 (F := Ideal) j = 0 := fun _ => Ideal.ofBits_zero_f32
  have hzero0 : ∀ j : S_.Idx, val_main_cst_0 (F := Ideal) j = 0 := fun _ => Ideal.ofBits_zero_f32
  have hzero2 : ∀ j : S_.Idx, val_main_cst_2 (F := Ideal) j = 0 := fun _ => Ideal.ofBits_zero_f32
  rw [val_main_v15_apply, hzero, zero_add]
  unfold llAt term
  refine Finset.sum_congr rfl fun t _ => ?_
  rw [hidx15 t, val_main_v14_apply, val_main_v12_apply, val_main_v9_apply, val_main_v8_apply, val_main_v13_apply,
    val_main_cst_1_apply, val_main_cst_3_apply, val_main_v7_apply, val_main_v11_apply, hzero0, hzero2, zero_add, zero_add]
  refine congrArg₂ (fun A B : EReal => negHalf * A - B - kappa) ?_ ?_
  · refine Finset.sum_congr rfl fun d _ => ?_
    rw [hidx7 t d]
    obtain ⟨h0, h1, h2, hs⟩ := hd (ix4 b c t d)
    exact ref_sq a0 a1 a2 _ h0 h1 h2 hs
  · refine Finset.sum_congr rfl fun d _ => ?_
    rw [hidx11 t d]
    exact ref_logscale a1 _

/-- The same as one equation of arrays [64, 16]. -/
theorem ref_loglik_grid (a0 a1 a2 : FVec Ideal S64x16x200x64 .f32)
    (hd : ∀ i : S64x16x200x64.Idx, (∃ r : ℝ, a0 i = (r : EReal)) ∧ (∃ r : ℝ, a1 i = (r : EReal)) ∧ (∃ r : ℝ, a2 i = (r : EReal))
      ∧ 0 < a1 i + delta) :
    val_main_v15 (F := Ideal) a0 a1 a2 = llGrid a1 a2 := by
  funext i
  have hi : i = ix2 (⟨(i 0).val, (i 0).isLt⟩ : Fin 64) (⟨(i 1).val, (i 1).isLt⟩ : Fin 16) :=
    funext fun a => by match a with | ⟨0, _⟩ => rfl | ⟨1, _⟩ => rfl
  exact (congrArg (val_main_v15 (F := Ideal) a0 a1 a2) hi).trans (ref_loglik a0 a1 a2 hd _ _)

end Cert.GaussLL

end
-- ==== Proof.LibLayoutCols.lean ====
/-
  Layout facts for a row statistic kept as a column (`keepdims`): an `[a]` array cast to `[a, 1]`, an `[a, 1]` column
  broadcast across `[a, b]`, and a sum along the second axis of an `[a, b]` array read at a row. General: they mention
  no program.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.LayoutCols

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float sum along the second axis of an `[a, b]` array of extended reals, read at row `p`: the sum over the
    row's entries. (The accumulator's word is the sum's neutral element, whatever way its proof is spelt.) -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.Lib.LayoutCols

end
-- ==== Proof.LibSumLastAxis3.lean ====
/-
  A float sum along the last axis of an `[a, b, c]` array of extended reals, read at `(p, q)`: the sum over `k` of the
  entries `(p, q, k)`. General: it mentions no program.
-/
import Idealize.ShloMosaic.Lib.ValueIdx
import Idealize.ShloMosaic.PureOps.Ideal.Laws

noncomputable section

namespace Cert.Lib.SumLastAxis3

open Idealize.ShloMosaic Idealize.ShloMosaic.ValueIdx

/-- A `vector.multi_reduction <add>` over axis 2 of an `[a, b, c]` array, at the ideal values, read at `(p, q)`, is
    `∑ k, src (p, q, k)`. (The accumulator's word is the sum's neutral element, whatever way its proof is spelt.) -/
theorem lastAxisSum3_apply {a b c : ℕ} {φ : FTy} (src : FVec Ideal (⟨3, ![a, b, c]⟩ : Shape) φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] (⟨2, ![a, b]⟩ : Shape) src acc h hφ hacc (ix2 p q) = ∑ k : Fin c, src (ix3 p q k) :=
  (Ideal.multiReduction_add_single src acc h hφ hacc (ix2 p q)).trans
    (Finset.sum_congr rfl fun k _ => congrArg src (funext fun ax => Fin.ext (by
      match ax with
      | ⟨0, _⟩ => rfl
      | ⟨1, _⟩ => rfl
      | ⟨2, _⟩ => rfl)))

end Cert.Lib.SumLastAxis3

end
-- ==== Proof.BlockValues.lean ====
/-
  What the kernel body computes from one block of rows, entry by entry, at the ideal values: the sample
  `μ + (σ + δ)·ε` at every entry, and for each row of the block the log-likelihood with `ε²` as the squared residual
  (the sum over `d`, then over `t`, kept as a column).
-/
import proofs.«174244_j71777493451127_2_alg».proof.Proof.Gen.KernelIdeal.Skeleton
import proofs.«174244_j71777493451127_2_alg».proof.Proof.GaussTerms
import proofs.«174244_j71777493451127_2_alg».proof.Proof.LibLayoutCols
import proofs.«174244_j71777493451127_2_alg».proof.Proof.LibSumLastAxis3
import Idealize.ShloMosaic.Lib.Pipeline.Value
import Idealize.ShloMosaic.Lib.ValueIdx
import Idealize.ShloMosaic.PureOps.Ideal.Laws

noncomputable section

namespace Cert.GaussLL

open Idealize.ShloMosaic Idealize.ShloMosaic.ValueIdx Cert.KernelIdeal Cert.KernelIdeal.Gen

/-- The stored sample block is `μ + (σ + δ)·ε` entry by entry. -/
theorem sample_apply (x0 x1 x2 : Vec Ideal S32x200x64 .f32) (y : S32x200x64.Idx) :
    k0_pay3 (F := Ideal) x0 x1 x2 y = xiAt x0 x1 x2 y := by
  unfold k0_pay3 k0_pay2 k0_pay1
  simp only [shapeCast_self]
  rfl

/-- The stored column holds, at row `p`, the row's log-likelihood. -/
theorem loglik_apply (x1 x2 : Vec Ideal S32x200x64 .f32) (p : Fin 32) (u : Fin 1) :
    k0_pay4 (F := Ideal) x1 x2 (ix2 p u) = rowLL x1 x2 p := by
  unfold k0_pay4 k0_pay2 k0_pay1
  simp only [shapeCast_self]
  refine (Cert.Lib.LayoutCols.shapeCast_a_a1_apply _ _ p u).trans ?_
  refine (Cert.Lib.LayoutCols.rowSum_apply _ _ _ _ _ p).trans ?_
  unfold rowLL term
  refine Finset.sum_congr rfl fun t _ => ?_
  refine congrArg₂ (fun A B : EReal => negHalf * A - B - kappa) ?_ ?_
  · exact Cert.Lib.SumLastAxis3.lastAxisSum3_apply _ _ _ _ _ p t
  · exact Cert.Lib.SumLastAxis3.lastAxisSum3_apply _ _ _ _ _ p t

end Cert.GaussLL

end
-- ==== Proof.Flatten.lean ====
/-
  Rows flattened and restored. The arrays [64, 16, 200, 64] are handed over as [1024, 200, 64] — row `16·b + c` of the
  flat array is the slice `(b, c)` — and the results come back the same way: the sample [1024, 200, 64] as
  [64, 16, 200, 64], the column of row log-likelihoods [1024, 1] as [64, 16]. The sample is an entrywise function, so
  flattening and restoring cancel; the log-likelihood of flat row `16·b + c` is the log-likelihood at `(b, c)`.
-/
import proofs.«174244_j71777493451127_2_alg».proof.Proof.GaussTerms
import Idealize.ShloMosaic.Lib.Pipeline.Value
import Idealize.ShloMosaic.Lib.ValueIdx

noncomputable section

namespace Cert.GaussLL

open Idealize.ShloMosaic Idealize.ShloMosaic.ValueIdx

abbrev Full : Shape := ⟨4, ![64, 16, 200, 64]⟩
abbrev Flat : Shape := ⟨3, ![1024, 200, 64]⟩
abbrev FlatCol : Shape := ⟨2, ![1024, 1]⟩
abbrev Grid2 : Shape := ⟨2, ![64, 16]⟩

/-- The column of row log-likelihoods of flat arrays. -/
def loglikCol (sg ep : Flat.Idx → EReal) : FlatCol.Idx → EReal :=
  fun i => rowLL (N := 1024) sg ep ⟨(i 0).val, (i 0).isLt⟩

/-- The sample is entrywise: it commutes with any re-layout. -/
theorem xiAt_shapeCast {S T : Shape} (x0 x1 x2 : S.Idx → EReal) (h : S.ShapeCasts T) :
    shapeCast T (xiAt x0 x1 x2) h = xiAt (shapeCast T x0 h) (shapeCast T x1 h) (shapeCast T x2 h) := rfl

/-- The sample of the flattened inputs, restored, is the sample of the inputs. -/
theorem restore_sample (a0 a1 a2 : Full.Idx → EReal) (hf : Full.ShapeCasts Flat) (hr : Flat.ShapeCasts Full) :
    shapeCast Full (xiAt (shapeCast Flat a0 hf) (shapeCast Flat a1 hf) (shapeCast Flat a2 hf)) hr = xiAt a0 a1 a2 := by
  rw [xiAt_shapeCast, shapeCast_shapeCast, shapeCast_shapeCast, shapeCast_shapeCast]

/-- Entry `(t, d)` of flat row `16·b + c` is entry `(b, c, t, d)`. -/
theorem flat_read {α : Type} (x : Full.Idx → α) (hf : Full.ShapeCasts Flat) (b : Fin 64) (c : Fin 16) (t : Fin 200) (d : Fin 64)
    (n : Fin 1024) (hn : n.val = b.val * 16 + c.val) :
    shapeCast Flat x hf (ix3 n t d) = x (ix4 b c t d) :=
  shapeCast_apply x hf _ _ (by
    rw [Shape.rowMajor_val_four, Shape.rowMajor_val_three]
    show ((b.val * 16 + c.val) * 200 + t.val) * 64 + d.val = (n.val * 200 + t.val) * 64 + d.val
    rw [hn])

/-- The column of flat-row log-likelihoods, restored to [64, 16], holds at `(b, c)` the log-likelihood there. -/
theorem restore_loglik (a1 a2 : Full.Idx → EReal) (hf : Full.ShapeCasts Flat) (hr : FlatCol.ShapeCasts Grid2)
    (b : Fin 64) (c : Fin 16) :
    shapeCast Grid2 (loglikCol (shapeCast Flat a1 hf) (shapeCast Flat a2 hf)) hr (ix2 b c) = llAt a1 a2 b c := by
  have hlt : b.val * 16 + c.val < 1024 := by omega
  refine (shapeCast_apply _ hr (ix2 b c) (ix2 (⟨b.val * 16 + c.val, hlt⟩ : Fin 1024) (0 : Fin 1)) ?_).trans ?_
  · rw [Shape.rowMajor_val_two, Shape.rowMajor_val_two]
    show (b.val * 16 + c.val) * 1 + 0 = b.val * 16 + c.val
    omega
  · unfold loglikCol rowLL llAt
    refine Finset.sum_congr rfl fun t _ => ?_
    refine congrArg₂ term (funext fun d => ?_) (funext fun d => ?_)
    · exact congrArg₂ (· * ·) (flat_read a2 hf b c t d _ rfl) (flat_read a2 hf b c t d _ rfl)
    · exact congrArg (· + delta) (flat_read a1 hf b c t d _ rfl)

/-- The same as one equation of arrays [64, 16]. -/
theorem restore_loglik_grid (a1 a2 : Full.Idx → EReal) (hf : Full.ShapeCasts Flat) (hr : FlatCol.ShapeCasts Grid2) :
    shapeCast Grid2 (loglikCol (shapeCast Flat a1 hf) (shapeCast Flat a2 hf)) hr = llGrid a1 a2 := by
  funext i
  have hi : i = ix2 (⟨(i 0).val, (i 0).isLt⟩ : Fin 64) (⟨(i 1).val, (i 1).isLt⟩ : Fin 16) :=
    funext fun a => by match a with | ⟨0, _⟩ => rfl | ⟨1, _⟩ => rfl
  exact (congrArg (shapeCast Grid2 (loglikCol (shapeCast Flat a1 hf) (shapeCast Flat a2 hf)) hr) hi).trans
    (restore_loglik a1 a2 hf hr _ _)

end Cert.GaussLL

end
-- ==== Proof.KernelArrays.lean ====
/-
  The kernel's two arrays after the launch and what the program returns, at the ideal values.

  The launch has 32 points; point `t` is handed rows `32·t … 32·t + 31` of the three flattened inputs and writes back the
  same rows of the sample and of the column of row log-likelihoods. Each block written back is the restriction to those
  rows of one function of the whole flat arrays (the sample entrywise; the column by its row), the 32 blocks cover all
  1024 rows, so each array ends holding that function. The two results are those arrays restored to [64, 16, 200, 64]
  and [64, 16], of inputs that are the arguments flattened.
-/
import proofs.«174244_j71777493451127_2_alg».proof.Proof.Gen.KernelIdeal.Frame
import proofs.«174244_j71777493451127_2_alg».proof.Proof.BlockValues
import proofs.«174244_j71777493451127_2_alg».proof.Proof.Flatten
import Idealize.ShloMosaic.Lib.Pipeline.Value
import Idealize.ShloMosaic.Lib.StableHlo.Run

noncomputable section

namespace Cert.GaussLL

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- Every window's block index at point `t` is `t` on the row axis and `0` on the others. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 ∧ t.val < 32 :=
  (by decide +kernel : ∀ t : Fin grid0.N, _)

/-- The flat inputs as the launch finds them: the arguments flattened. -/
theorem entry_mu (c : Dev nD) : (V m c main_v0 : S1024x200x64.Idx → EReal)
    = shapeCast S1024x200x64 (m ((c : Thread nD τ).loc main_arg0)) shapeCasts_S64x16x200x64_S1024x200x64 := by
  show StableHlo.after hostOps0 (fun b => m (c, b)) (Proc.devRef .tc main_v0) = _
  after_results
  rfl
theorem entry_sigma (c : Dev nD) : (V m c main_v1 : S1024x200x64.Idx → EReal)
    = shapeCast S1024x200x64 (m ((c : Thread nD τ).loc main_arg1)) shapeCasts_S64x16x200x64_S1024x200x64 := by
  show StableHlo.after hostOps0 (fun b => m (c, b)) (Proc.devRef .tc main_v1) = _
  after_results
  rfl
theorem entry_eps (c : Dev nD) : (V m c main_v2 : S1024x200x64.Idx → EReal)
    = shapeCast S1024x200x64 (m ((c : Thread nD τ).loc main_arg2)) shapeCasts_S64x16x200x64_S1024x200x64 := by
  show StableHlo.after hostOps0 (fun b => m (c, b)) (Proc.devRef .tc main_v2) = _
  after_results
  rfl

/-! ## A point's input blocks are rows of the flat inputs -/

/-- Row `p` of point `t`'s block of the flat `σ` is row `32·t + p` of the flat `σ`. -/
theorem sigma_block (c : Dev nD) (t : Fin cfg0.N) (n : Fin 1024) (p : Fin 32) (hn : n.val = t.val * 32 + p.val)
    (q : Fin 200) (d : Fin 64) : iblk m c 1 t (ix3 p q d) = V m c main_v1 (ix3 n q d) := by
  obtain ⟨-, -, -, e0, e1, e2, -⟩ := block_index t
  show V m c main_v1 (((cfg0.win 1).blk t).view.emb (ix3 p q d)) = V m c main_v1 (ix3 n q d)
  refine congrArg (V m c main_v1) (funext fun a => Fin.ext ?_)
  match a with
  | ⟨0, _⟩ => show win0_1.index t (0 : Fin 3) * 32 + 1 * p.val = n.val; omega
  | ⟨1, _⟩ => show win0_1.index t (1 : Fin 3) * 200 + 1 * q.val = q.val; omega
  | ⟨2, _⟩ => show win0_1.index t (2 : Fin 3) * 64 + 1 * d.val = d.val; omega

/-- The same for `ε`. -/
theorem eps_block (c : Dev nD) (t : Fin cfg0.N) (n : Fin 1024) (p : Fin 32) (hn : n.val = t.val * 32 + p.val)
    (q : Fin 200) (d : Fin 64) : iblk m c 2 t (ix3 p q d) = V m c main_v2 (ix3 n q d) := by
  obtain ⟨-, -, -, -, -, -, e0, e1, e2, -⟩ := block_index t
  show V m c main_v2 (((cfg0.win 2).blk t).view.emb (ix3 p q d)) = V m c main_v2 (ix3 n q d)
  refine congrArg (V m c main_v2) (funext fun a => Fin.ext ?_)
  match a with
  | ⟨0, _⟩ => show win0_2.index t (0 : Fin 3) * 32 + 1 * p.val = n.val; omega
  | ⟨1, _⟩ => show win0_2.index t (1 : Fin 3) * 200 + 1 * q.val = q.val; omega
  | ⟨2, _⟩ => show win0_2.index t (2 : Fin 3) * 64 + 1 * d.val = d.val; omega

/-! ## What a point writes back -/

/-- Point `t` writes back its rows of the sample of the flat inputs. -/
theorem flushed_sample (c : Dev nD) (t : Fin cfg0.N) :
    (dats m 0 c).flushed 3 t
      = ((cfg0.win 3).blk t).view.read (Elt Ideal) (xiAt (S := S1024x200x64) (V m c main_v0) (V m c main_v1) (V m c main_v2)) := by
  show (cfg0.win 3).cut (grid0.coords t) ((dats m 0 c).after 3 t) = _
  rw [after0_3]
  unfold out0_3
  rw [View.canon_unit_zero zero3]
  simp only [View.ld_unit_zero (S := S32x200x64) zero3]
  obtain ⟨a0, a1, a2, b0, b1, b2, c0, c1, c2, d0, d1, d2, -⟩ := block_index t
  funext j
  refine (sample_apply _ _ _ j).trans ?_
  show xiAt (S := S32x200x64) (iblk m c 0 t) (iblk m c 1 t) (iblk m c 2 t) j
    = xiAt (S := S1024x200x64) (V m c main_v0) (V m c main_v1) (V m c main_v2) (((cfg0.win 3).blk t).view.emb j)
  have h0 : ((cfg0.win 0).blk t).view.emb j = ((cfg0.win 3).blk t).view.emb j := by
    funext a; apply Fin.ext
    match a with
    | ⟨0, _⟩ => show win0_0.index t (0 : Fin 3) * 32 + 1 * (j 0).val = win0_3.index t (0 : Fin 3) * 32 + 1 * (j 0).val; omega
    | ⟨1, _⟩ => show win0_0.index t (1 : Fin 3) * 200 + 1 * (j 1).val = win0_3.index t (1 : Fin 3) * 200 + 1 * (j 1).val; omega
    | ⟨2, _⟩ => show win0_0.index t (2 : Fin 3) * 64 + 1 * (j 2).val = win0_3.index t (2 : Fin 3) * 64 + 1 * (j 2).val; omega
  have h1 : ((cfg0.win 1).blk t).view.emb j = ((cfg0.win 3).blk t).view.emb j := by
    funext a; apply Fin.ext
    match a with
    | ⟨0, _⟩ => show win0_1.index t (0 : Fin 3) * 32 + 1 * (j 0).val = win0_3.index t (0 : Fin 3) * 32 + 1 * (j 0).val; omega
    | ⟨1, _⟩ => show win0_1.index t (1 : Fin 3) * 200 + 1 * (j 1).val = win0_3.index t (1 : Fin 3) * 200 + 1 * (j 1).val; omega
    | ⟨2, _⟩ => show win0_1.index t (2 : Fin 3) * 64 + 1 * (j 2).val = win0_3.index t (2 : Fin 3) * 64 + 1 * (j 2).val; omega
  have h2 : ((cfg0.win 2).blk t).view.emb j = ((cfg0.win 3).blk t).view.emb j := by
    funext a; apply Fin.ext
    match a with
    | ⟨0, _⟩ => show win0_2.index t (0 : Fin 3) * 32 + 1 * (j 0).val = win0_3.index t (0 : Fin 3) * 32 + 1 * (j 0).val; omega
    | ⟨1, _⟩ => show win0_2.index t (1 : Fin 3) * 200 + 1 * (j 1).val = win0_3.index t (1 : Fin 3) * 200 + 1 * (j 1).val; omega
    | ⟨2, _⟩ => show win0_2.index t (2 : Fin 3) * 64 + 1 * (j 2).val = win0_3.index t (2 : Fin 3) * 64 + 1 * (j 2).val; omega
  have r0 : iblk m c 0 t j = V m c main_v0 (((cfg0.win 3).blk t).view.emb j) := by
    show V m c main_v0 (((cfg0.win 0).blk t).view.emb j) = _
    exact congrArg (V m c main_v0) h0
  have r1 : iblk m c 1 t j = V m c main_v1 (((cfg0.win 3).blk t).view.emb j) := by
    show V m c main_v1 (((cfg0.win 1).blk t).view.emb j) = _
    exact congrArg (V m c main_v1) h1
  have r2 : iblk m c 2 t j = V m c main_v2 (((cfg0.win 3).blk t).view.emb j) := by
    show V m c main_v2 (((cfg0.win 2).blk t).view.emb j) = _
    exact congrArg (V m c main_v2) h2
  unfold xiAt
  rw [r0, r1, r2]

/-- Point `t` writes back its rows of the column of row log-likelihoods of the flat inputs. -/
theorem flushed_loglik (c : Dev nD) (t : Fin cfg0.N) :
    (dats m 0 c).flushed 4 t
      = ((cfg0.win 4).blk t).view.read (Elt Ideal) (loglikCol (V m c main_v1) (V m c main_v2)) := by
  show (cfg0.win 4).cut (grid0.coords t) ((dats m 0 c).after 4 t) = _
  rw [after0_4]
  unfold out0_4
  rw [View.canon_unit_zero zero2]
  simp only [View.ld_unit_zero (S := S32x200x64) zero3]
  obtain ⟨-, -, -, -, -, -, -, -, -, -, -, -, e0, e1, ht⟩ := block_index t
  funext j
  have hj : j = ix2 (⟨(j 0).val, (j 0).isLt⟩ : Fin 32) (⟨(j 1).val, (j 1).isLt⟩ : Fin 1) :=
    funext fun a => by match a with | ⟨0, _⟩ => rfl | ⟨1, _⟩ => rfl
  have hp : (j 0).val < 32 := (j 0).isLt
  refine ((congrArg (k0_pay4 (F := Ideal) (iblk m c 1 t) (iblk m c 2 t)) hj).trans (loglik_apply _ _ _ _)).trans ?_
  show rowLL (N := 32) (iblk m c 1 t) (iblk m c 2 t) ⟨(j 0).val, (j 0).isLt⟩
    = rowLL (N := 1024) (V m c main_v1) (V m c main_v2) ⟨((((cfg0.win 4).blk t).view.emb j) 0).val, ((((cfg0.win 4).blk t).view.emb j) 0).isLt⟩
  have hrow : ((((cfg0.win 4).blk t).view.emb j) 0).val = t.val * 32 + (j 0).val := by
    show win0_4.index t (0 : Fin 2) * 32 + 1 * (j 0).val = t.val * 32 + (j 0).val
    omega
  unfold rowLL
  refine Finset.sum_congr rfl fun q _ => ?_
  refine congrArg₂ term (funext fun d => ?_) (funext fun d => ?_)
  · rw [eps_block m c t ⟨_, ((((cfg0.win 4).blk t).view.emb j) 0).isLt⟩ ⟨(j 0).val, (j 0).isLt⟩ hrow q d]
  · rw [sigma_block m c t ⟨_, ((((cfg0.win 4).blk t).view.emb j) 0).isLt⟩ ⟨(j 0).val, (j 0).isLt⟩ hrow q d]

/-! ## The arrays after the launch -/

/-- A flat index lies in point `t`'s block of the sample iff each coordinate lies in the block's range. -/
theorem mem_sample_block (t : Fin cfg0.N) (i : S1024x200x64.Idx) :
    i ∈ ((cfg0.win 3).blk t).view.set ↔ ∀ a : Fin 3, win0_3.index t a * S32x200x64.size a ≤ (i a).val
      ∧ (i a).val < win0_3.index t a * S32x200x64.size a + S32x200x64.size a := by
  show i ∈ ((View.whole main_v3_0).slice (win0_3.rect t)).set ↔ _
  rw [View.set_slice_whole, Rect.mem_set_unit]
  exact Iff.rfl

/-- The same for the column of row log-likelihoods. -/
theorem mem_loglik_block (t : Fin cfg0.N) (i : S1024x1.Idx) :
    i ∈ ((cfg0.win 4).blk t).view.set ↔ ∀ a : Fin 2, win0_4.index t a * S32x1.size a ≤ (i a).val
      ∧ (i a).val < win0_4.index t a * S32x1.size a + S32x1.size a := by
  show i ∈ ((View.whole main_v3_1).slice (win0_4.rect t)).set ↔ _
  rw [View.set_slice_whole, Rect.mem_set_unit]
  exact Iff.rfl

/-- Row `r` is written by point `r / 32`: the 32 blocks cover the sample. -/
theorem sample_covered (i : S1024x200x64.Idx) :
    ∃ t : Fin cfg0.N, (cfg0.win 3).flush t = true ∧ i ∈ ((cfg0.win 3).blk t).view.set := by
  have hi0 : (i 0).val < 1024 := (i 0).isLt
  have hi1 : (i 1).val < 200 := (i 1).isLt
  have hi2 : (i 2).val < 64 := (i 2).isLt
  have hN : grid0.N = 32 := N_0
  have hlt : (i 0).val / 32 < grid0.N := by rw [hN]; omega
  obtain ⟨-, -, -, -, -, -, -, -, -, d0, d1, d2, -⟩ := block_index ⟨(i 0).val / 32, hlt⟩
  have d0' : win0_3.index ⟨(i 0).val / 32, hlt⟩ (0 : Fin 3) = (i 0).val / 32 := d0
  refine ⟨⟨(i 0).val / 32, hlt⟩, flush0_3 _, ?_⟩
  rw [mem_sample_block]
  intro a
  match a with
  | ⟨0, _⟩ =>
    show win0_3.index ⟨(i 0).val / 32, hlt⟩ (0 : Fin 3) * 32 ≤ (i 0).val ∧ (i 0).val < win0_3.index ⟨(i 0).val / 32, hlt⟩ (0 : Fin 3) * 32 + 32
    omega
  | ⟨1, _⟩ =>
    show win0_3.index ⟨(i 0).val / 32, hlt⟩ (1 : Fin 3) * 200 ≤ (i 1).val ∧ (i 1).val < win0_3.index ⟨(i 0).val / 32, hlt⟩ (1 : Fin 3) * 200 + 200
    omega
  | ⟨2, _⟩ =>
    show win0_3.index ⟨(i 0).val / 32, hlt⟩ (2 : Fin 3) * 64 ≤ (i 2).val ∧ (i 2).val < win0_3.index ⟨(i 0).val / 32, hlt⟩ (2 : Fin 3) * 64 + 64
    omega

/-- And the column. -/
theorem loglik_covered (i : S1024x1.Idx) :
    ∃ t : Fin cfg0.N, (cfg0.win 4).flush t = true ∧ i ∈ ((cfg0.win 4).blk t).view.set := by
  have hi0 : (i 0).val < 1024 := (i 0).isLt
  have hi1 : (i 1).val < 1 := (i 1).isLt
  have hN : grid0.N = 32 := N_0
  have hlt : (i 0).val / 32 < grid0.N := by rw [hN]; omega
  obtain ⟨-, -, -, -, -, -, -, -, -, -, -, -, e0, e1, -⟩ := block_index ⟨(i 0).val / 32, hlt⟩
  have e0' : win0_4.index ⟨(i 0).val / 32, hlt⟩ (0 : Fin 2) = (i 0).val / 32 := e0
  refine ⟨⟨(i 0).val / 32, hlt⟩, flush0_4 _, ?_⟩
  rw [mem_loglik_block]
  intro a
  match a with
  | ⟨0, _⟩ =>
    show win0_4.index ⟨(i 0).val / 32, hlt⟩ (0 : Fin 2) * 32 ≤ (i 0).val ∧ (i 0).val < win0_4.index ⟨(i 0).val / 32, hlt⟩ (0 : Fin 2) * 32 + 32
    omega
  | ⟨1, _⟩ =>
    show win0_4.index ⟨(i 0).val / 32, hlt⟩ (1 : Fin 2) * 1 ≤ (i 1).val ∧ (i 1).val < win0_4.index ⟨(i 0).val / 32, hlt⟩ (1 : Fin 2) * 1 + 1
    omega

/-- The sample's array after the launch. -/
theorem sample_array (c : Dev nD) :
    (dats m 0 c).arrAt 3 cfg0.N = xiAt (S := S1024x200x64) (V m c main_v0) (V m c main_v1) (V m c main_v2) :=
  (dats m 0 c).arrAt_eq_of_cover 3 _ (fun t _ => flushed_sample m c t) sample_covered

/-- The column's array after the launch. -/
theorem loglik_array (c : Dev nD) :
    (dats m 0 c).arrAt 4 cfg0.N = loglikCol (V m c main_v1) (V m c main_v2) :=
  (dats m 0 c).arrAt_eq_of_cover 4 _ (fun t _ => flushed_loglik m c t) loglik_covered

/-! ## The two results -/

/-- The first result: the sample of the flattened arguments, restored — the sample of the arguments. -/
theorem result_sample (c : Dev nD) :
    Pipeline.afterTail₀ cfgs (dats m) 0 (V0 m) [hostOps1] c main_v4
      = xiAt (S := S64x16x200x64) (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_0)
      = xiAt (S := S1024x200x64) (V m c main_v0) (V m c main_v1) (V m c main_v2) :=
    (Pipeline.withArrays_arr spec0 launch0.win.arr_inj c _ _ 3).trans (sample_array m c)
  rw [hw, entry_mu, entry_sigma, entry_eps]
  exact restore_sample _ _ _ _ _

/-- The second result: the column of row log-likelihoods of the flattened arguments, restored to [64, 16] — the
    log-likelihoods of the arguments. -/
theorem result_loglik (c : Dev nD) :
    Pipeline.afterTail₀ cfgs (dats m) 0 (V0 m) [hostOps1] c main_v5
      = llGrid (m ((c : Thread nD τ).loc main_arg1)) (m ((c : Thread nD τ).loc main_arg2)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3_1)
      = loglikCol (V m c main_v1) (V m c main_v2) :=
    (Pipeline.withArrays_arr spec0 launch0.win.arr_inj c _ _ 4).trans (loglik_array m c)
  rw [hw, entry_sigma, entry_eps]
  exact restore_loglik_grid _ _ _ _

/-! ## The run -/

/-- Every weakly fair execution of the program terminates with the first result at the sample of the arguments, the
    second at their log-likelihoods (with `ε²` for the squared residual), and the arguments unchanged. -/
theorem run : θ_run defs (onTc (τ := τ) (main (F := Ideal))) ⟨m, fun _ => 0, ρ⟩ fun r => ∀ c : Dev nD,
      r.2.mem ((c : Thread nD τ).loc main_v4)
        = xiAt (S := S64x16x200x64) (m ((c : Thread nD τ).loc main_arg0)) (m ((c : Thread nD τ).loc main_arg1)) (m ((c : Thread nD τ).loc main_arg2))
      ∧ r.2.mem ((c : Thread nD τ).loc main_v5)
        = llGrid (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans (result_sample m c),
       ((h c).2 main_v5 (Pipeline.mem_restRefs_of main_v5 (by decide) (by decide))).trans (result_loglik m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.GaussLL

end
-- ==== Proof.lean ====
/-
  A reparameterised sample `ξ = μ + (σ + δ)·ε` and its diagonal-Gaussian log-likelihood
  `LL(b, c) = Σ_t ( −½ · Σ_d z² − Σ_d log (σ + δ) − κ )` over arrays [64, 16, 200, 64].

  The kernel flattens the two leading axes to 1024 rows, handles 32 rows per grid point, and uses `z² = ε²`; the
  reference computes `z = (ξ − μ) / (σ + δ)`. On the extended reals the two agree exactly where the reference's own
  logarithm and quotient are defined: every input entry real and the scale `σ + δ` positive (at `σ + δ = 0` the
  reference's `0 / 0` differs from `ε`). Under that precondition `z = ε` entry by entry (`GaussLL.standardized`), the
  sample is the same entrywise expression on both sides, and the sums over `d` and `t` are the same finite sums, whatever
  the tiling: `GaussLL.run` reads the kernel's two results as `xiAt` and `llGrid` of the arguments, the reference's run
  is read to the same two functions (`GaussLL.ref_sample`, `GaussLL.ref_loglik_grid`).
-/
import proofs.«174244_j71777493451127_2_alg».proof.Defs
import proofs.«174244_j71777493451127_2_alg».proof.Proof.Gen.Kernel
import proofs.«174244_j71777493451127_2_alg».proof.Proof.Gen.Kernel.Skeleton
import proofs.«174244_j71777493451127_2_alg».proof.Proof.Gen.Kernel.Launch
import proofs.«174244_j71777493451127_2_alg».proof.Proof.Gen.Kernel.Points
import proofs.«174244_j71777493451127_2_alg».proof.Proof.Gen.Kernel.Frame
import proofs.«174244_j71777493451127_2_alg».proof.Proof.Gen.KernelIdeal
import proofs.«174244_j71777493451127_2_alg».proof.Proof.Gen.KernelIdeal.Skeleton
import proofs.«174244_j71777493451127_2_alg».proof.Proof.Gen.KernelIdeal.Launch
import proofs.«174244_j71777493451127_2_alg».proof.Proof.Gen.KernelIdeal.Points
import proofs.«174244_j71777493451127_2_alg».proof.Proof.Gen.KernelIdeal.Frame
import proofs.«174244_j71777493451127_2_alg».proof.Proof.Gen.ReferenceIdeal
import proofs.«174244_j71777493451127_2_alg».proof.Proof.Gen.Pre_finite_inputs
import proofs.«174244_j71777493451127_2_alg».proof.Proof.Gen.ReferenceIdeal.Run
import proofs.«174244_j71777493451127_2_alg».proof.Proof.Gen.ReferenceIdeal.Read
import proofs.«174244_j71777493451127_2_alg».proof.Proof.FiniteDomain
import proofs.«174244_j71777493451127_2_alg».proof.Proof.ReferenceValues
import proofs.«174244_j71777493451127_2_alg».proof.Proof.KernelArrays
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does the program read at the ideal values. -/
theorem frame_kernelIdeal : Cert.frame_KernelIdeal := fun m ρ _ => Cert.KernelIdeal.Gen.frame m ρ

/-- The reference runs and keeps its arguments: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the sample `μ + (σ + δ)·ε` and the log-likelihoods `Σ_t (−½ Σ_d ε² − Σ_d log (σ + δ) − κ)` of
    the arguments: the kernel unconditionally, the reference because its residual `z` is `ε` where the inputs are real
    and the scale positive. -/
theorem algebraic : Cert.algebraic_KernelIdeal_ReferenceIdeal := by
  intro m ρ m' ρ' hpre hagree
  refine ⟨fun c => Cert.GaussLL.xiAt (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.GaussLL.llGrid (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.GaussLL.run m ρ, ?_⟩
  refine (θ_run Cert.ReferenceIdeal.defs _ _).mono
    (fun _ h c => ⟨?_, ?_, (h c).2.2.1, (h c).2.2.2.1, (h c).2.2.2.2⟩)
    (Cert.ReferenceIdeal.Value.run (F := Ideal) m' ρ')
  · rw [(h c).1, Cert.ReferenceIdeal.Read.val_main_v3_eq, Cert.GaussLL.ref_sample, (hagree c).1, (hagree c).2.1, (hagree c).2.2]
  · rw [(h c).2.1, Cert.ReferenceIdeal.Read.val_main_v15_eq, (hagree c).1, (hagree c).2.1, (hagree c).2.2]
    exact Cert.GaussLL.ref_loglik_grid _ _ _ (Cert.GaussLL.domain _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
